-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 77
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S50000x64, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x64, .f32⟩
  | .hbm, ⟨67, _⟩ => ⟨S_, .f32⟩
  | .hbm, ⟨68, _⟩ => ⟨S50000x64, .f32⟩
  | .hbm, ⟨69, _⟩ => ⟨S850000x1, .i32⟩
  | .hbm, ⟨70, _⟩ => ⟨S50000x64, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000, .f32⟩
  | .hbm, ⟨107, _⟩ => ⟨S850000, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x64, .f32⟩
  | .hbm, ⟨117, _⟩ => ⟨S850000x1, .f32⟩
  | .hbm, ⟨118, _⟩ => ⟨S850000x64, .f32⟩
  | .hbm, ⟨119, _⟩ => ⟨S850000x64, .f32⟩
  | .hbm, ⟨120, _⟩ => ⟨S_, .f32⟩
  | .hbm, ⟨121, _⟩ => ⟨S50000x64, .f32⟩
  | .hbm, ⟨122, _⟩ => ⟨S850000x1, .i32⟩
  | .hbm, ⟨123, _⟩ => ⟨S50000x64, .f32⟩
  | .hbm, ⟨124, _⟩ => ⟨S1x64, .f32⟩
  | .hbm, ⟨125, _⟩ => ⟨S50000x64, .f32⟩
  | .hbm, ⟨126, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_19 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run, with its result named.

  Every weakly fair execution of the program terminates without a fault; the argument arrays end as
  launched, and the result array ends at the contents the last stretch of host operations leaves, read
  through the fold of the segments: the host stretches' results over the two regions' write-backs.
-/
import proofs.«122148_j15006615732583_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault from any memory with zero counters, the result array at the last
    boundary's contents, the arguments as launched. -/
theorem run : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v56 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ValueRun

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.ScaledRows.lean ====
/-
  Rows of a product, each scaled by its own factor.

  For an M×K array x, a K×N matrix w and an M×1 column d, the array whose entry (p, q) is
  (row p of x) · w at column q, times d(p, 0): the product x·w with row p multiplied through by d(p).
-/
import proofs.«122148_j15006615732583_2_alg».proof.Proof.LibRowDot

noncomputable section

namespace Cert.ScaledRows

open Idealize.ShloMosaic Idealize.ShloMosaic.ValueIdx

/-- Entry (p, q): the sum over k of x(p, k) · w(k, q), times d(p, 0). -/
def scaledRows {M K N : Nat} (x : (⟨2, ![M, K]⟩ : Shape).Idx → EReal) (w : (⟨2, ![K, N]⟩ : Shape).Idx → EReal)
    (d : (⟨2, ![M, 1]⟩ : Shape).Idx → EReal) : (⟨2, ![M, N]⟩ : Shape).Idx → EReal :=
  fun i => Cert.RowDot.rowDot (Cert.RowDot.rowOf x (i 0)) w (i 1) * d (ix2 (i 0) (0 : Fin 1))

theorem scaledRows_apply {M K N : Nat} (x : (⟨2, ![M, K]⟩ : Shape).Idx → EReal) (w : (⟨2, ![K, N]⟩ : Shape).Idx → EReal)
    (d : (⟨2, ![M, 1]⟩ : Shape).Idx → EReal) (p : Fin M) (q : Fin N) :
    scaledRows x w d (ix2 p q) = Cert.RowDot.rowDot (Cert.RowDot.rowOf x p) w q * d (ix2 p (0 : Fin 1)) := rfl

end Cert.ScaledRows

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Region0Value.lean ====
/-
  Region 0 in closed form.

  The region runs a row-blocked product on a grid of ten points: point t takes rows 5000·t … 5000·t + 4999 of the
  50000×128 array x, the whole 128×128 matrix w and the same rows of the 50000×1 column d, and writes into those rows of
  the 50000×128 output the block  (x-block · w), each row multiplied through by its entry of d.  At the exact values the
  narrowing of the operands is the identity and the product into the zero accumulator is the plain sum over k, so the
  entry (p, q) of the output array after the region is  (Σ_k x(p, k) · w(k, q)) · d(p, 0).

  The steps: the payload at an entry; one grid point, given how its blocks sit in the arrays; the four windows' block
  indices over the grid; what a point writes back; the blocks cover the array; the array after the region.
-/
import proofs.«122148_j15006615732583_2_alg».proof.Proof.Gen.KernelIdeal.Frame
import proofs.«122148_j15006615732583_2_alg».proof.Proof.ScaledRows
import proofs.«122148_j15006615732583_2_alg».proof.Proof.LibRowDot
import proofs.«122148_j15006615732583_2_alg».proof.Proof.LibColumn
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.RowDot Cert.ScaledRows

/-- The printed dimension numbers are those of a plain 5000×128 by 128×128 product. -/
theorem dims_plain : dot_S5000x128_S128x128_S5000x128_1_0_0_1_n_n = DotDims.plain 5000 128 128 := rfl

/-- The body's payload at entry (p, q): row p of the first block times the matrix, at column q, times the column's entry p. -/
theorem payload_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = rowDot (rowOf x0 p) x1 q * x2 (ix2 p (0 : Fin 1)) := by
  unfold k0_pay1
  rw [mulf_apply, shapeCast_self, Cert.Column.broadcastTo_a1_ab_apply, dims_plain]
  exact congrArg (· * x2 (ix2 p (0 : Fin 1)))
    (matmul_plain_zero_apply none (truncf .bf16 x0 bitsLt_bf16_f32) (truncf .bf16 x1 bitsLt_bf16_f32) (ix2 p q))

/-- One grid point: when the three loaded blocks are rows 5000·n … 5000·n + 4999 of x, the whole of w, and the same rows
    of d, the payload at a block index is the scaled-rows array at the array index 5000·n rows further down. -/
theorem point_apply (X : S50000x128.Idx → EReal) (Wt : S128x128.Idx → EReal) (D : S50000x1.Idx → EReal)
    (x0 : Vec Ideal S5000x128 .f32) (x1 : Vec Ideal S128x128 .f32) (x2 : Vec Ideal S5000x1 .f32) (n : Nat)
    (h0 : ∀ (j : S5000x128.Idx) (i : S50000x128.Idx), (i 0).val = n * 5000 + (j 0).val → (i 1).val = (j 1).val → x0 j = X i)
    (h1 : x1 = Wt)
    (h2 : ∀ (j : S5000x1.Idx) (i : S50000x1.Idx), (i 0).val = n * 5000 + (j 0).val → x2 j = D i)
    (j : S5000x128.Idx) (i : S50000x128.Idx) (hi0 : (i 0).val = n * 5000 + (j 0).val) (hi1 : (i 1).val = (j 1).val) :
    k0_pay1 (F := Ideal) x0 x1 x2 j = scaledRows X Wt D i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = n * 5000 + p.val := hi0
  have hs : s = q := Fin.ext hi1
  subst hs
  rw [payload_apply, scaledRows_apply, h1]
  have e2 : x2 (ix2 p (0 : Fin 1)) = D (ix2 r (0 : Fin 1)) := h2 _ _ hr
  have e0 : rowOf x0 p = rowOf X r := funext fun k => h0 (ix2 p k) (ix2 r k) hr rfl
  rw [e2, e0]

theorem hz : (![0, 0] : Fin 2 → Nat) = fun _ => 0 := funext fun a => by fin_cases a <;> rfl

/-- The four windows' block indices over the grid: windows 0, 2 and 3 are at block (t, 0) at point t, window 1 at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row r of the output lies in the block of point r / 5000: the ten blocks of 5000 rows tile the 50000 rows. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := rfl
  refine ⟨⟨(i 0).val / 5000, by rw [hN]; omega⟩, flush0_3 _, ?_⟩
  rw [mem_blk]
  obtain ⟨-, -, -, -, -, -, e6, e7⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

section
variable (V : (c : Dev nD) → (b : Ref sig .tc) → Buf (Elt Ideal) ((c : Thread nD τ).loc b))

/-- What point t writes back is block t of the scaled-rows array of the three arrays as the region finds them. -/
theorem flushed_eq (c : Dev nD) (t : Fin cfg0.N) :
    (dat0 (F := Ideal) V c).flushed 3 t
      = ((cfg0.win 3).blk t).view.read (Elt Ideal)
          (scaledRows (V c main_arg0 : S50000x128.Idx → EReal) (V c main_arg2 : S128x128.Idx → EReal) (V c main_v15 : S50000x1.Idx → EReal)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  refine point_apply _ _ _ _ _ _ t.val ?_ ?_ ?_ j _ ?_ ?_
  · intro y i hi0 hi1
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; rw [e0, hi0]; omega
    | ⟨1, _⟩ => show win0_0.index t (1 : Fin 2) * 128 + 1 * (y 1).val = (i 1).val; rw [e1, hi1]; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; rw [e2]; omega
    | ⟨1, _⟩ => show win0_1.index t (1 : Fin 2) * 128 + 1 * (y 1).val = (y 1).val; rw [e3]; omega
  · intro y i hi0
    show V c main_v15 (((cfg0.win 2).blk t).view.emb y) = V c main_v15 i
    refine congrArg _ (funext fun a => Fin.ext ?_)
    match a with
    | ⟨0, _⟩ => show win0_2.index t (0 : Fin 2) * 5000 + 1 * (y 0).val = (i 0).val; rw [e4, hi0]; omega
    | ⟨1, _⟩ =>
      show win0_2.index t (1 : Fin 2) * 1 + 1 * (y 1).val = (i 1).val
      have hy : (y 1).val < 1 := (y 1).isLt
      have hi : (i 1).val < 1 := (i 1).isLt
      rw [e5]; omega
  · show win0_3.index t (0 : Fin 2) * 5000 + 1 * (j 0).val = t.val * 5000 + (j 0).val; rw [e6]; omega
  · show win0_3.index t (1 : Fin 2) * 128 + 1 * (j 1).val = (j 1).val; rw [e7]; omega

/-- After the region the output array holds, at (p, q), the sum over k of x(p, k) · w(k, q), times d(p, 0). -/
theorem final (c : Dev nD) :
    (dat0 (F := Ideal) V c).arrAt 3 cfg0.N
      = scaledRows (V c main_arg0 : S50000x128.Idx → EReal) (V c main_arg2 : S128x128.Idx → EReal) (V c main_v15 : S50000x1.Idx → EReal) :=
  (dat0 (F := Ideal) V c).arrAt_eq_of_cover 3 _ (fun t _ => flushed_eq V c t) cover

end

end Cert.KernelIdeal.Region0

end
-- ==== Proof.Region1Value.lean ====
/-
  Region 1 in closed form.

  The region runs the same row-blocked product as region 0 with a 128×64 matrix: point t of a grid of ten takes rows
  5000·t … 5000·t + 4999 of the 50000×128 array x, the whole 128×64 matrix w and the same rows of the 50000×1 column d, and
  writes into those rows of the 50000×64 output the block  (x-block · w), each row multiplied through by its entry of d.
  At the exact values the narrowing of the operands is the identity and the product into the zero accumulator is the plain
  sum over k, so the entry (p, q) of the output array after the region is  (Σ_k x(p, k) · w(k, q)) · d(p, 0).

  The steps: the payload at an entry; one grid point, given how its blocks sit in the arrays; the four windows' block
  indices over the grid; the blocks cover the array; what a point writes back; the array after the region.
-/
import proofs.«122148_j15006615732583_2_alg».proof.Proof.Gen.KernelIdeal.Frame
import proofs.«122148_j15006615732583_2_alg».proof.Proof.ScaledRows
import proofs.«122148_j15006615732583_2_alg».proof.Proof.LibRowDot
import proofs.«122148_j15006615732583_2_alg».proof.Proof.LibColumn
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.RowDot Cert.ScaledRows

/-- The printed dimension numbers are those of a plain 5000×128 by 128×64 product. -/
theorem dims_plain : dot_S5000x128_S128x64_S5000x64_1_0_0_1_n_n = DotDims.plain 5000 128 64 := rfl

/-- The body's payload at entry (p, q): row p of the first block times the matrix, at column q, times the column's entry p. -/
theorem payload_apply (x0 : Vec Ideal S5000x128 .f32) (x1 : Vec Ideal S128x64 .f32) (x2 : Vec Ideal S5000x1 .f32)
    (p : Fin 5000) (q : Fin 64) :
    k1_pay1 (F := Ideal) x0 x1 x2 (ix2 p q) = rowDot (rowOf x0 p) x1 q * x2 (ix2 p (0 : Fin 1)) := by
  unfold k1_pay1
  rw [mulf_apply, shapeCast_self, shapeCast_self, Cert.Column.broadcastTo_a1_ab_apply, dims_plain]
  exact congrArg (· * x2 (ix2 p (0 : Fin 1)))
    (matmul_plain_zero_apply none (truncf .bf16 x0 bitsLt_bf16_f32) (truncf .bf16 x1 bitsLt_bf16_f32) (ix2 p q))

/-- One grid point: when the three loaded blocks are rows 5000·n … 5000·n + 4999 of x, the whole of w, and the same rows
    of d, the payload at a block index is the scaled-rows array at the array index 5000·n rows further down. -/
theorem point_apply (X : S50000x128.Idx → EReal) (Wt : S128x64.Idx → EReal) (D : S50000x1.Idx → EReal)
    (x0 : Vec Ideal S5000x128 .f32) (x1 : Vec Ideal S128x64 .f32) (x2 : Vec Ideal S5000x1 .f32) (n : Nat)
    (h0 : ∀ (j : S5000x128.Idx) (i : S50000x128.Idx), (i 0).val = n * 5000 + (j 0).val → (i 1).val = (j 1).val → x0 j = X i)
    (h1 : x1 = Wt)
    (h2 : ∀ (j : S5000x1.Idx) (i : S50000x1.Idx), (i 0).val = n * 5000 + (j 0).val → x2 j = D i)
    (j : S5000x64.Idx) (i : S50000x64.Idx) (hi0 : (i 0).val = n * 5000 + (j 0).val) (hi1 : (i 1).val = (j 1).val) :
    k1_pay1 (F := Ideal) x0 x1 x2 j = scaledRows X Wt D i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hr : r.val = n * 5000 + p.val := hi0
  have hs : s = q := Fin.ext hi1
  subst hs
  rw [payload_apply, scaledRows_apply, h1]
  have e2 : x2 (ix2 p (0 : Fin 1)) = D (ix2 r (0 : Fin 1)) := h2 _ _ hr
  have e0 : rowOf x0 p = rowOf X r := funext fun k => h0 (ix2 p k) (ix2 r k) hr rfl
  rw [e2, e0]

theorem hz : (![0, 0] : Fin 2 → Nat) = fun _ => 0 := funext fun a => by fin_cases a <;> rfl

/-- The four windows' block indices over the grid: windows 0, 2 and 3 are at block (t, 0) at point t, window 1 at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- An index of the output array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v40).slice (win1_3.rect t)).set ↔ _
  rw [View.set_slice_whole, Rect.mem_set_unit]
  exact Iff.rfl

/-- Row r of the output lies in the block of point r / 5000: the ten blocks of 5000 rows tile the 50000 rows. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := rfl
  refine ⟨⟨(i 0).val / 5000, by rw [hN]; omega⟩, flush1_3 _, ?_⟩
  rw [mem_blk]
  obtain ⟨-, -, -, -, -, -, e6, e7⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e7]; omega

section
variable (V : (c : Dev nD) → (b : Ref sig .tc) → Buf (Elt Ideal) ((c : Thread nD τ).loc b))

/-- What point t writes back is block t of the scaled-rows array of the three arrays as the region finds them. -/
theorem flushed_eq (c : Dev nD) (t : Fin cfg1.N) :
    (dat1 (F := Ideal) V c).flushed 3 t
      = ((cfg1.win 3).blk t).view.read (Elt Ideal)
          (scaledRows (V c main_v38 : S50000x128.Idx → EReal) (V c main_arg4 : S128x64.Idx → EReal) (V c main_v39 : S50000x1.Idx → EReal)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz, View.ld_unit_zero (S := S5000x1) hz]
  obtain ⟨e0, e1, e2, e3, e4, e5, e6, e7⟩ := idx_facts t
  funext j
  refine point_apply _ _ _ _ _ _ t.val ?_ ?_ ?_ j _ ?_ ?_
  · intro y i hi0 hi1
    show V c main_v38 (((cfg1.win 0).blk t).view.emb y) = V c main_v38 i
    refine congrArg _ (funext fun a => Fin.ext ?_)
    match a with
    | ⟨0, _⟩ => show win1_0.index t (0 : Fin 2) * 5000 + 1 * (y 0).val = (i 0).val; rw [e0, hi0]; omega
    | ⟨1, _⟩ => show win1_0.index t (1 : Fin 2) * 128 + 1 * (y 1).val = (i 1).val; rw [e1, hi1]; omega
  · funext y
    show V c main_arg4 (((cfg1.win 1).blk t).view.emb y) = V c main_arg4 y
    refine congrArg _ (funext fun a => Fin.ext ?_)
    match a with
    | ⟨0, _⟩ => show win1_1.index t (0 : Fin 2) * 128 + 1 * (y 0).val = (y 0).val; rw [e2]; omega
    | ⟨1, _⟩ => show win1_1.index t (1 : Fin 2) * 64 + 1 * (y 1).val = (y 1).val; rw [e3]; omega
  · intro y i hi0
    show V c main_v39 (((cfg1.win 2).blk t).view.emb y) = V c main_v39 i
    refine congrArg _ (funext fun a => Fin.ext ?_)
    match a with
    | ⟨0, _⟩ => show win1_2.index t (0 : Fin 2) * 5000 + 1 * (y 0).val = (i 0).val; rw [e4, hi0]; omega
    | ⟨1, _⟩ =>
      show win1_2.index t (1 : Fin 2) * 1 + 1 * (y 1).val = (i 1).val
      have hy : (y 1).val < 1 := (y 1).isLt
      have hi : (i 1).val < 1 := (i 1).isLt
      rw [e5]; omega
  · show win1_3.index t (0 : Fin 2) * 5000 + 1 * (j 0).val = t.val * 5000 + (j 0).val; rw [e6]; omega
  · show win1_3.index t (1 : Fin 2) * 64 + 1 * (j 1).val = (j 1).val; rw [e7]; omega

/-- After the region the output array holds, at (p, q), the sum over k of x(p, k) · w(k, q), times d(p, 0). -/
theorem final (c : Dev nD) :
    (dat1 (F := Ideal) V c).arrAt 3 cfg1.N
      = scaledRows (V c main_v38 : S50000x128.Idx → EReal) (V c main_arg4 : S128x64.Idx → EReal) (V c main_v39 : S50000x1.Idx → EReal) :=
  (dat1 (F := Ideal) V c).arrAt_eq_of_cover 3 _ (fun t _ => flushed_eq V c t) cover

end

end Cert.KernelIdeal.Region1

end
-- ==== Proof.KernelSpec.lean ====
/-
  The idealized kernel program, stretch by stretch, as functions of arrays.

  Edges (s, d) are listed as two rows of words; every node is given a self loop by appending 0 … N−1 to both
  rows.  The degree of node n counts the listed destinations equal to n; the normaliser is
  deg^(−1/2) where the degree is positive and 0 elsewhere.  One layer takes the row-scaled product
  p(n, ·) = (x·w)(n, ·) · dinv(n), gathers its rows at the (wrapped, clamped) sources, accumulates them at
  the raw destinations, scales row n by dinv(n) and adds the bias.  Between the layers stands the
  logistic function 1 / (1 + exp(−z)).
-/
import proofs.«122148_j15006615732583_2_alg».proof.Proof.Gen.KernelIdeal
import Idealize.ShloMosaic.PureOps.Ideal

noncomputable section

namespace Cert.KernelIdeal.Spec

open Cert.KernelIdeal Cert.KernelIdeal.Gen Idealize.ShloMosaic

/-- The sources with the self loops appended. -/
def srcOf (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The destinations with the self loops appended. -/
def dstOf (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A list of node words as a column of start indices, raw. -/
def rawCol (s : IVec S850000 32) : IVec S850000x1 32 := broadcastInDim S850000x1 ![0] bcast_S850000_S850000x1_0 s

/-- A list of node words as a column of start indices, a negative word wrapped by the node count. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The degree: ones accumulated at the destinations. -/
def degOf (d : IVec S850000 32) : FVec Ideal S50000 .f32 :=
  Host.scatterAdd scatter_S50000_S850000x1_S850000_n_0_0_1 (broadcastInDim S50000 ![] bcast_S_S50000 (constant (F := Ideal) S_ .f32 0x00000000#32))
    (rawCol d) (broadcastInDim S850000 ![] bcast_S_S850000 (constant (F := Ideal) S_ .f32 0x3F800000#32))

/-- The normaliser: the inverse square root of a positive degree, zero elsewhere. -/
def dinvOf (d : IVec S850000 32) : FVec Ideal S50000 .f32 :=
  select (cmpf .ogt (degOf d) (broadcastInDim S50000 ![] bcast_S_S50000 (constant (F := Ideal) S_ .f32 0x00000000#32))) (Host.rsqrt (degOf d))
    (broadcastInDim S50000 ![] bcast_S_S50000 (id (constant (F := Ideal) S_ .f32 0x00000000#32)))

/-- The normaliser as a column. -/
def colOf (a : FVec Ideal S50000 .f32) : FVec Ideal S50000x1 .f32 := shapeCast S50000x1 a shapeCasts_S50000_S50000x1

/-- The first layer's aggregation of a row-scaled product p, width 128. -/
def agg128 (a : FVec Ideal S50000 .f32) (s d : IVec S850000 32) (p : FVec Ideal S50000x128 .f32) (b : FVec Ideal S128 .f32) :
    FVec Ideal S50000x128 .f32 :=
  addf (mulf (broadcastInDim S50000x128 ![0, 1] bcast_S50000x1_S50000x128_0_1 (broadcastInDim S50000x1 ![0] bcast_S50000_S50000x1_0 a))
      (Host.scatterAdd scatter_S50000x128_S850000x1_S850000x128_1_0_0_1 (broadcastInDim S50000x128 ![] bcast_S_S50000x128 (constant (F := Ideal) S_ .f32 0x00000000#32))
        (rawCol d) (Host.gather gather_S50000x128_S850000x1_S850000x128_1_0_n_n_0_1_1128 p (wrapCol s))))
    (broadcastInDim S50000x128 ![0, 1] bcast_S1x128_S50000x128_0_1 (broadcastInDim S1x128 ![1] bcast_S128_S1x128_1 b))

/-- The logistic function, entry by entry. -/
def logistic128 (z : FVec Ideal S50000x128 .f32) : FVec Ideal S50000x128 .f32 :=
  Host.divf (broadcastInDim S50000x128 ![] bcast_S_S50000x128 (constant (F := Ideal) S_ .f32 0x3F800000#32))
    (addf (broadcastInDim S50000x128 ![] bcast_S_S50000x128 (constant (F := Ideal) S_ .f32 0x3F800000#32)) (Host.exp (Host.negf z)))

/-- The second layer's aggregation, width 64. -/
def agg64 (a : FVec Ideal S50000 .f32) (s d : IVec S850000 32) (p : FVec Ideal S50000x64 .f32) (b : FVec Ideal S64 .f32) :
    FVec Ideal S50000x64 .f32 :=
  addf (mulf (broadcastInDim S50000x64 ![0, 1] bcast_S50000x1_S50000x64_0_1 (broadcastInDim S50000x1 ![0] bcast_S50000_S50000x1_0 a))
      (Host.scatterAdd scatter_S50000x64_S850000x1_S850000x64_1_0_0_1 (broadcastInDim S50000x64 ![] bcast_S_S50000x64 (constant (F := Ideal) S_ .f32 0x00000000#32))
        (rawCol d) (Host.gather gather_S50000x64_S850000x1_S850000x64_1_0_n_n_0_1_164 p (wrapCol s))))
    (broadcastInDim S50000x64 ![0, 1] bcast_S1x64_S50000x64_0_1 (broadcastInDim S1x64 ![1] bcast_S64_S1x64_1 b))

end Cert.KernelIdeal.Spec

end
-- ==== Proof.HostStretches.lean ====
/-
  The host stretches of the program as functions of the buffers they read.

  Three stretches of host operations stand before the first region, one between the two regions and one after the
  second.  For ANY contents G of the buffers when a stretch starts, each buffer a later part of the program reads is, after
  the stretch, a named function of the buffers the stretch read: the source and destination lists with the self loops
  appended, the normaliser and its column before the first region; the logistic function of the first layer's
  aggregation, and the normaliser's column again, between the regions; the second layer's aggregation after the second.
  Every other buffer named here is left as it was.
-/
import proofs.«122148_j15006615732583_2_alg».proof.Proof.Gen.KernelIdeal.Launch
import proofs.«122148_j15006615732583_2_alg».proof.Proof.KernelSpec
import Idealize.ShloMosaic.Lib.StableHlo.Run

noncomputable section

namespace Cert.KernelIdeal.Stretch

open Cert.KernelIdeal Cert.KernelIdeal.Gen Cert.KernelIdeal.Spec Idealize.ShloMosaic Idealize.ShloMosaic.TcCoe Idealize.ShloMosaic.StableHlo

variable (G : Valuation τ sig (Elt Ideal))

/-- The buffers after the three host stretches that precede the first region. -/
abbrev pre : Valuation τ sig (Elt Ideal) :=
  StableHlo.after hostOps0_2 (StableHlo.after hostOps0_1 (StableHlo.after hostOps0 G))

/-! ## Before the first region -/

set_option maxHeartbeats 4000000 in
/-- The sources with the self loops appended. -/
theorem pre_v3 : pre G (Proc.devRef .tc main_v3) = srcOf (G (Proc.devRef .tc main_arg1)) := by
  dsimp only [pre, hostOps0, hostOps0_1, hostOps0_2]
  after_results
  rfl

set_option maxHeartbeats 4000000 in
/-- The destinations with the self loops appended. -/
theorem pre_v6 : pre G (Proc.devRef .tc main_v6) = dstOf (G (Proc.devRef .tc main_arg1)) := by
  dsimp only [pre, hostOps0, hostOps0_1, hostOps0_2]
  after_results
  rfl

/-! ### The normaliser, stretch by stretch

The first stretch leaves the degree compared with zero, its inverse square root, and a zero; the second (the inlined
selection) picks between them; the third recasts the result as a column. -/

set_option maxHeartbeats 4000000 in
/-- After the first stretch: where the degree is positive. -/
theorem first_v12 : StableHlo.after hostOps0 G (Proc.devRef .tc main_v12)
    = cmpf .ogt (degOf (dstOf (G (Proc.devRef .tc main_arg1)))) (broadcastInDim S50000 ![] bcast_S_S50000 (constant (F := Ideal) S_ .f32 0x00000000#32)) := by
  dsimp only [hostOps0]
  after_results
  rfl

set_option maxHeartbeats 4000000 in
/-- After the first stretch: the inverse square root of the degree. -/
theorem first_v13 : StableHlo.after hostOps0 G (Proc.devRef .tc main_v13) = Host.rsqrt (degOf (dstOf (G (Proc.devRef .tc main_arg1)))) := by
  dsimp only [hostOps0]
  after_results
  rfl

set_option maxHeartbeats 4000000 in
/-- After the first stretch: the zero the selection falls back to. -/
theorem first_cst2 : StableHlo.after hostOps0 G (Proc.devRef .tc main_cst_2) = constant (F := Ideal) S_ .f32 0x00000000#32 := by
  dsimp only [hostOps0]
  after_results

set_option maxHeartbeats 4000000 in
/-- The second stretch selects, entry by entry, between its second operand and the zero spread over the nodes. -/
theorem second_v14 : StableHlo.after hostOps0_1 G (Proc.devRef .tc main_v14)
    = select (G (Proc.devRef .tc main_v12)) (G (Proc.devRef .tc main_v13))
        (broadcastInDim S50000 ![] bcast_S_S50000 (id (G (Proc.devRef .tc main_cst_2)))) := by
  dsimp only [hostOps0_1]
  after_results
  rfl

/-- The third stretch leaves the normaliser as it was … -/
theorem third_v14 : StableHlo.after hostOps0_2 G (Proc.devRef .tc main_v14) = G (Proc.devRef .tc main_v14) := by
  dsimp only [hostOps0_2]
  after_results

/-- … and writes it as a column. -/
theorem third_v15 : StableHlo.after hostOps0_2 G (Proc.devRef .tc main_v15) = colOf (G (Proc.devRef .tc main_v14)) := by
  dsimp only [hostOps0_2]
  after_results
  rfl

/-- After the first two stretches: the normaliser. -/
theorem first_second_v14 : StableHlo.after hostOps0_1 (StableHlo.after hostOps0 G) (Proc.devRef .tc main_v14)
    = dinvOf (dstOf (G (Proc.devRef .tc main_arg1))) := by
  rw [second_v14, first_v12, first_v13, first_cst2]
  rfl

/-- The normaliser: the inverse square root of each positive degree, zero elsewhere. -/
theorem pre_v14 : pre G (Proc.devRef .tc main_v14) = dinvOf (dstOf (G (Proc.devRef .tc main_arg1))) := by
  unfold pre
  rw [third_v14, first_second_v14]

/-- The normaliser as a column. -/
theorem pre_v15 : pre G (Proc.devRef .tc main_v15) = colOf (dinvOf (dstOf (G (Proc.devRef .tc main_arg1)))) := by
  unfold pre
  rw [third_v15, first_second_v14]

set_option maxHeartbeats 4000000 in
/-- The stretch does not write this buffer. -/
theorem pre_arg0 : pre G (Proc.devRef .tc main_arg0) = G (Proc.devRef .tc main_arg0) := by
  dsimp only [pre, hostOps0, hostOps0_1, hostOps0_2]
  after_results

set_option maxHeartbeats 4000000 in
/-- The stretch does not write this buffer. -/
theorem pre_arg2 : pre G (Proc.devRef .tc main_arg2) = G (Proc.devRef .tc main_arg2) := by
  dsimp only [pre, hostOps0, hostOps0_1, hostOps0_2]
  after_results

set_option maxHeartbeats 4000000 in
/-- The stretch does not write this buffer. -/
theorem pre_arg3 : pre G (Proc.devRef .tc main_arg3) = G (Proc.devRef .tc main_arg3) := by
  dsimp only [pre, hostOps0, hostOps0_1, hostOps0_2]
  after_results

set_option maxHeartbeats 4000000 in
/-- The stretch does not write this buffer. -/
theorem pre_arg4 : pre G (Proc.devRef .tc main_arg4) = G (Proc.devRef .tc main_arg4) := by
  dsimp only [pre, hostOps0, hostOps0_1, hostOps0_2]
  after_results

set_option maxHeartbeats 4000000 in
/-- The stretch does not write this buffer. -/
theorem pre_arg5 : pre G (Proc.devRef .tc main_arg5) = G (Proc.devRef .tc main_arg5) := by
  dsimp only [pre, hostOps0, hostOps0_1, hostOps0_2]
  after_results

/-! ## Between the regions -/

set_option maxHeartbeats 4000000 in
/-- The logistic function of the first layer's aggregation of the first region's output. -/
theorem mid_v38 : StableHlo.after hostOps1 G (Proc.devRef .tc main_v38)
    = logistic128 (agg128 (G (Proc.devRef .tc main_v14)) (G (Proc.devRef .tc main_v3)) (G (Proc.devRef .tc main_v6))
        (G (Proc.devRef .tc main_v16)) (G (Proc.devRef .tc main_arg3))) := by
  dsimp only [hostOps1]
  after_results_simp
  rfl

set_option maxHeartbeats 4000000 in
/-- The normaliser as a column. -/
theorem mid_v39 : StableHlo.after hostOps1 G (Proc.devRef .tc main_v39) = colOf (G (Proc.devRef .tc main_v14)) := by
  dsimp only [hostOps1]
  after_results_simp
  rfl

set_option maxHeartbeats 4000000 in
/-- The stretch does not write this buffer. -/
theorem mid_v3 : StableHlo.after hostOps1 G (Proc.devRef .tc main_v3) = G (Proc.devRef .tc main_v3) := by
  dsimp only [hostOps1]
  after_results_simp

set_option maxHeartbeats 4000000 in
/-- The stretch does not write this buffer. -/
theorem mid_v6 : StableHlo.after hostOps1 G (Proc.devRef .tc main_v6) = G (Proc.devRef .tc main_v6) := by
  dsimp only [hostOps1]
  after_results_simp

set_option maxHeartbeats 4000000 in
/-- The stretch does not write this buffer. -/
theorem mid_v14 : StableHlo.after hostOps1 G (Proc.devRef .tc main_v14) = G (Proc.devRef .tc main_v14) := by
  dsimp only [hostOps1]
  after_results_simp

set_option maxHeartbeats 4000000 in
/-- The stretch does not write this buffer. -/
theorem mid_arg4 : StableHlo.after hostOps1 G (Proc.devRef .tc main_arg4) = G (Proc.devRef .tc main_arg4) := by
  dsimp only [hostOps1]
  after_results_simp

set_option maxHeartbeats 4000000 in
/-- The stretch does not write this buffer. -/
theorem mid_arg5 : StableHlo.after hostOps1 G (Proc.devRef .tc main_arg5) = G (Proc.devRef .tc main_arg5) := by
  dsimp only [hostOps1]
  after_results_simp

/-! ## After the second region -/

set_option maxHeartbeats 4000000 in
/-- The second layer's aggregation of the second region's output. -/
theorem post_v56 : StableHlo.after hostOps2 G (Proc.devRef .tc main_v56)
    = agg64 (G (Proc.devRef .tc main_v14)) (G (Proc.devRef .tc main_v3)) (G (Proc.devRef .tc main_v6))
        (G (Proc.devRef .tc main_v40)) (G (Proc.devRef .tc main_arg5)) := by
  dsimp only [hostOps2]
  after_results_simp
  rfl

end Cert.KernelIdeal.Stretch

end
-- ==== Proof.Stages.lean ====
/-
  The idealized kernel program's buffers at each boundary of its run, as functions of the arguments.

  The program is a stretch of host operations (edge lists with self loops, degrees, the normaliser), a
  row-blocked scaled product, a second stretch (gather, accumulate, scale, bias, logistic), a second scaled
  product, and a last stretch (gather, accumulate, scale, bias).  Each stretch is a pure function of the buffers
  it reads; each product leaves x·w with row p scaled by the normaliser at p; nothing else is written in
  between, so every buffer a later stretch reads still holds what an earlier stretch or product left there.
-/
import proofs.«122148_j15006615732583_2_alg».proof.Proof.Gen.KernelIdeal.Frame
import proofs.«122148_j15006615732583_2_alg».proof.Proof.Region0Value
import proofs.«122148_j15006615732583_2_alg».proof.Proof.Region1Value
import proofs.«122148_j15006615732583_2_alg».proof.Proof.HostStretches
import proofs.«122148_j15006615732583_2_alg».proof.Proof.KernelSpec
import proofs.«122148_j15006615732583_2_alg».proof.Proof.ScaledRows

set_option maxRecDepth 16384

noncomputable section

namespace Cert.KernelIdeal.Stages

open Cert.KernelIdeal Cert.KernelIdeal.Gen Cert.KernelIdeal.Spec Cert.KernelIdeal.Stretch Cert.ScaledRows
open Idealize.ShloMosaic Idealize.ShloMosaic.TcCoe Idealize.SL.Sem Idealize.ShloMosaic.StableHlo

/-- The whole program as one function of its six arguments. -/
def kernelOut (x0 : S50000x128.Idx → EReal) (x1 : S2x800000.Idx → BitVec 32) (x2 : S128x128.Idx → EReal)
    (x3 : S128.Idx → EReal) (x4 : S128x64.Idx → EReal) (x5 : S64.Idx → EReal) : S50000x64.Idx → EReal :=
  agg64 (dinvOf (dstOf x1)) (srcOf x1) (dstOf x1)
    (scaledRows (logistic128 (agg128 (dinvOf (dstOf x1)) (srcOf x1) (dstOf x1)
      (scaledRows x0 x2 (colOf (dinvOf (dstOf x1)))) x3)) x4 (colOf (dinvOf (dstOf x1)))) x5

variable (m : (ℓ : Loc nD τ sig) → Buf (Elt Ideal) ℓ) (ρ : Dev nD → PrngReg) (c : Dev nD)

/-! ## The arguments as arrays -/

abbrev X0 : S50000x128.Idx → EReal := m ((c.tc : Thread nD τ).loc main_arg0)
abbrev X1 : S2x800000.Idx → BitVec 32 := m ((c.tc : Thread nD τ).loc main_arg1)
abbrev X2 : S128x128.Idx → EReal := m ((c.tc : Thread nD τ).loc main_arg2)
abbrev X3 : S128.Idx → EReal := m ((c.tc : Thread nD τ).loc main_arg3)
abbrev X4 : S128x64.Idx → EReal := m ((c.tc : Thread nD τ).loc main_arg4)
abbrev X5 : S64.Idx → EReal := m ((c.tc : Thread nD τ).loc main_arg5)

/-! ## Before the first product -/

theorem W3_v3 : W3 m ρ c (Proc.devRef .tc main_v3) = srcOf (X1 m c) := pre_v3 (W0 m ρ c)
theorem W3_v6 : W3 m ρ c (Proc.devRef .tc main_v6) = dstOf (X1 m c) := pre_v6 (W0 m ρ c)
theorem W3_v14 : W3 m ρ c (Proc.devRef .tc main_v14) = dinvOf (dstOf (X1 m c)) := pre_v14 (W0 m ρ c)
theorem W3_v15 : W3 m ρ c (Proc.devRef .tc main_v15) = colOf (dinvOf (dstOf (X1 m c))) := pre_v15 (W0 m ρ c)
theorem W3_arg0 : W3 m ρ c (Proc.devRef .tc main_arg0) = X0 m c := pre_arg0 (W0 m ρ c)
theorem W3_arg2 : W3 m ρ c (Proc.devRef .tc main_arg2) = X2 m c := pre_arg2 (W0 m ρ c)
theorem W3_arg3 : W3 m ρ c (Proc.devRef .tc main_arg3) = X3 m c := pre_arg3 (W0 m ρ c)
theorem W3_arg4 : W3 m ρ c (Proc.devRef .tc main_arg4) = X4 m c := pre_arg4 (W0 m ρ c)
theorem W3_arg5 : W3 m ρ c (Proc.devRef .tc main_arg5) = X5 m c := pre_arg5 (W0 m ρ c)

/-! ## After the first product -/

theorem W4_v16 : W4 m ρ c (Proc.devRef .tc main_v16) = scaledRows (X0 m c) (X2 m c) (colOf (dinvOf (dstOf (X1 m c)))) := by
  refine (W4_arr m ρ c 3).trans ((Cert.KernelIdeal.Region0.final (V3 m ρ) c).trans ?_)
  show scaledRows (W3 m ρ c (Proc.devRef .tc main_arg0)) (W3 m ρ c (Proc.devRef .tc main_arg2)) (W3 m ρ c (Proc.devRef .tc main_v15)) = _
  rw [W3_arg0, W3_arg2, W3_v15]
theorem W4_v3 : W4 m ρ c (Proc.devRef .tc main_v3) = srcOf (X1 m c) := (W4_of_ne m ρ c main_v3 (by decide)).trans (W3_v3 m ρ c)
theorem W4_v6 : W4 m ρ c (Proc.devRef .tc main_v6) = dstOf (X1 m c) := (W4_of_ne m ρ c main_v6 (by decide)).trans (W3_v6 m ρ c)
theorem W4_v14 : W4 m ρ c (Proc.devRef .tc main_v14) = dinvOf (dstOf (X1 m c)) := (W4_of_ne m ρ c main_v14 (by decide)).trans (W3_v14 m ρ c)
theorem W4_arg3 : W4 m ρ c (Proc.devRef .tc main_arg3) = X3 m c := (W4_of_ne m ρ c main_arg3 (by decide)).trans (W3_arg3 m ρ c)
theorem W4_arg4 : W4 m ρ c (Proc.devRef .tc main_arg4) = X4 m c := (W4_of_ne m ρ c main_arg4 (by decide)).trans (W3_arg4 m ρ c)
theorem W4_arg5 : W4 m ρ c (Proc.devRef .tc main_arg5) = X5 m c := (W4_of_ne m ρ c main_arg5 (by decide)).trans (W3_arg5 m ρ c)

/-! ## Before the second product -/

theorem W5_v38 : W5 m ρ c (Proc.devRef .tc main_v38) = logistic128 (agg128 (dinvOf (dstOf (X1 m c))) (srcOf (X1 m c)) (dstOf (X1 m c)) (scaledRows (X0 m c) (X2 m c) (colOf (dinvOf (dstOf (X1 m c))))) (X3 m c)) := by
  refine (mid_v38 (W4 m ρ c)).trans ?_
  rw [W4_v14, W4_v3, W4_v6, W4_v16, W4_arg3]
theorem W5_v39 : W5 m ρ c (Proc.devRef .tc main_v39) = colOf (dinvOf (dstOf (X1 m c))) := by
  refine (mid_v39 (W4 m ρ c)).trans ?_
  rw [W4_v14]
theorem W5_v3 : W5 m ρ c (Proc.devRef .tc main_v3) = srcOf (X1 m c) := (mid_v3 (W4 m ρ c)).trans (W4_v3 m ρ c)
theorem W5_v6 : W5 m ρ c (Proc.devRef .tc main_v6) = dstOf (X1 m c) := (mid_v6 (W4 m ρ c)).trans (W4_v6 m ρ c)
theorem W5_v14 : W5 m ρ c (Proc.devRef .tc main_v14) = dinvOf (dstOf (X1 m c)) := (mid_v14 (W4 m ρ c)).trans (W4_v14 m ρ c)
theorem W5_arg4 : W5 m ρ c (Proc.devRef .tc main_arg4) = X4 m c := (mid_arg4 (W4 m ρ c)).trans (W4_arg4 m ρ c)
theorem W5_arg5 : W5 m ρ c (Proc.devRef .tc main_arg5) = X5 m c := (mid_arg5 (W4 m ρ c)).trans (W4_arg5 m ρ c)

/-! ## After the second product -/

theorem W6_v40 : W6 m ρ c (Proc.devRef .tc main_v40) = scaledRows (logistic128 (agg128 (dinvOf (dstOf (X1 m c))) (srcOf (X1 m c)) (dstOf (X1 m c)) (scaledRows (X0 m c) (X2 m c) (colOf (dinvOf (dstOf (X1 m c))))) (X3 m c))) (X4 m c) (colOf (dinvOf (dstOf (X1 m c)))) := by
  refine (W6_arr m ρ c 3).trans ((Cert.KernelIdeal.Region1.final (V5 m ρ) c).trans ?_)
  show scaledRows (W5 m ρ c (Proc.devRef .tc main_v38)) (W5 m ρ c (Proc.devRef .tc main_arg4)) (W5 m ρ c (Proc.devRef .tc main_v39)) = _
  rw [W5_v38, W5_arg4, W5_v39]
theorem W6_v3 : W6 m ρ c (Proc.devRef .tc main_v3) = srcOf (X1 m c) := (W6_of_ne m ρ c main_v3 (by decide)).trans (W5_v3 m ρ c)
theorem W6_v6 : W6 m ρ c (Proc.devRef .tc main_v6) = dstOf (X1 m c) := (W6_of_ne m ρ c main_v6 (by decide)).trans (W5_v6 m ρ c)
theorem W6_v14 : W6 m ρ c (Proc.devRef .tc main_v14) = dinvOf (dstOf (X1 m c)) := (W6_of_ne m ρ c main_v14 (by decide)).trans (W5_v14 m ρ c)
theorem W6_arg5 : W6 m ρ c (Proc.devRef .tc main_arg5) = X5 m c := (W6_of_ne m ρ c main_arg5 (by decide)).trans (W5_arg5 m ρ c)

/-! ## The result -/

/-- The result array at the end of the run is the whole-program function of the arguments. -/
theorem W7_v56 : W7 m ρ c (Proc.devRef .tc main_v56) = kernelOut (X0 m c) (X1 m c) (X2 m c) (X3 m c) (X4 m c) (X5 m c) := by
  refine (post_v56 (W6 m ρ c)).trans ?_
  rw [W6_v14, W6_v3, W6_v6, W6_v40, W6_arg5]
  rfl

end Cert.KernelIdeal.Stages

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.EdgeFacts.lean ====
/-
  Two facts about the reference's terms of the edge argument.

  The column of destinations, with the self loops appended, is used twice: raw, as the start indices of the
  accumulating scatter, and wrapped (a negative word has the node count added), as the start indices of
  the gather of the normaliser.  A word that names a node n when read signed is not negative, so its
  wrapped form is the word itself and, clamped into range, it names n again.
  The degree is a count of edges, a nonnegative real; the normaliser, its guarded inverse square root, is
  again a nonnegative real.
-/
import proofs.«122148_j15006615732583_2_alg».proof.Proof.RefRead
import proofs.«122148_j15006615732583_2_alg».proof.Proof.LibRows1
import proofs.«122148_j15006615732583_2_alg».proof.Proof.LibNormSum
import Idealize.ShloMosaic.Lib.IdealHost

noncomputable section

namespace Cert.EdgeFacts

open Cert.ReferenceIdeal Cert.ReferenceIdeal.Read Idealize.ShloMosaic Idealize.ShloMosaic.ValueIdx

/-- A word that is not negative when read signed is not below zero in the signed order. -/
theorem cmpi_slt_zero_of_toInt_nonneg (D : BitVec 32) (k : ℕ) (h : D.toInt = (k : ℤ)) :
    IntOp.cmpi .slt D 0#32 = 0#1 := by
  show BitVec.ofBool (D.slt 0#32) = 0#1
  have hf : D.slt 0#32 = false := by
    rw [BitVec.slt_eq_decide, h, BitVec.toInt_zero]
    exact decide_eq_false (by omega)
  rw [hf]
  rfl

/-- The guarded inverse square root of an accumulated count of ones is a nonnegative real: the scatter of ones
    into zeros at `n` is the number of start words that name `n`. -/
theorem dinv_core (x : S50000.Idx → EReal) (hx : ∀ i, x i = 0) (idx : IVec S850000x1 32)
    (u : S850000.Idx → EReal) (hu : ∀ i, u i = 1) (n : Fin 50000) :
    ∃ r : ℝ, 0 ≤ r ∧
      Scalar.select
        (Ideal.cmp .ogt (Ideal.hostScatterAdd scatter_S50000_S850000x1_S850000_n_0_0_1 x idx u (ix1 n)) 0)
        (Ideal.rsqrt (Ideal.hostScatterAdd scatter_S50000_S850000x1_S850000_n_0_0_1 x idx u (ix1 n))) (0 : EReal)
        = (r : EReal) := by
  have hs : Ideal.hostScatterAdd scatter_S50000_S850000x1_S850000_n_0_0_1 x idx u (ix1 n)
      = 0 + ∑ e : Fin 850000, if (idx (ix2 e (0 : Fin 1))).toInt = (n.val : ℤ) then (1 : EReal) else 0 := by
    show Ideal.hostScatterAdd
      (Cert.Rows1.scatter1 50000 850000 Cert.ReferenceIdeal.Gen.scatter_S50000_S850000x1_S850000_n_0_0_1_wf)
      x idx u (ix1 n) = _
    rw [Cert.Rows1.scatterAdd1_apply, hx]
    simp only [hu]
  obtain ⟨r, hr0, hr⟩ := Cert.NormSum.count_nonneg_real
    (fun e : Fin 850000 => (idx (ix2 e (0 : Fin 1))).toInt = (n.val : ℤ))
  rw [hs, hr]
  exact Cert.NormSum.guarded_rsqrt_nonneg_real r hr0

variable (x1 : (⟨S2x800000, .i32⟩ : BufTy).Contents (Elt Ideal))

/-- A destination word that names node n, read signed, wraps to itself and clamps to n. -/
theorem dst_col (e : Fin 850000) (n : Fin 50000)
    (h : (val_main_v42 (F := Ideal) x1 (ix2 e (0 : Fin 1))).toInt = (n.val : ℤ)) :
    min (val_main_v28 (F := Ideal) x1 (ix2 e (0 : Fin 1))).toInt.toNat (50000 - 1) = n.val := by
  have hi42 : idx_main_v42 (ix2 e (0 : Fin 1)) = ix1 e := funext fun a => Fin.ext (by match a with | ⟨0, _⟩ => rfl)
  have hi28 : idx_main_v28 (ix2 e (0 : Fin 1)) = ix1 e := funext fun a => Fin.ext (by match a with | ⟨0, _⟩ => rfl)
  rw [val_main_v42_apply, hi42] at h
  rw [val_main_v28_apply, hi28, val_main_v27_apply, val_main_v24_apply, val_main_v23_apply, val_main_c_4_apply]
  generalize val_main_v6 (F := Ideal) x1 (ix1 e) = D at h ⊢
  have hn := n.isLt
  rw [cmpi_slt_zero_of_toInt_nonneg D n.val h]
  show min (if (0#1 : BitVec 1) = 1 then _ else D).toInt.toNat (50000 - 1) = n.val
  rw [if_neg (by decide), h, Int.toNat_natCast]
  omega

/-- The degree vector is the accumulating scatter of ones into zeros at the raw destination column. -/
theorem v11_unfold {F : FTy → Type} [FloatOps F] (y1 : (⟨S2x800000, .i32⟩ : BufTy).Contents (Elt F)) :
    val_main_v11 (F := F) y1
      = Host.scatterAdd scatter_S50000_S850000x1_S850000_n_0_0_1 (val_main_v9 (F := F))
          (val_main_v10 (F := F) y1) (val_main_v8 (F := F)) := rfl

/-- On the extended reals that scatter is the exact sum. -/
theorem v11_ideal : val_main_v11 (F := Ideal) x1
    = Ideal.hostScatterAdd scatter_S50000_S850000x1_S850000_n_0_0_1 (val_main_v9 (F := Ideal))
        (val_main_v10 (F := Ideal) x1) (val_main_v8 (F := Ideal)) :=
  (v11_unfold x1).trans (Ideal.hostScatterAdd_def _ .single _ _ _)

/-- The normaliser at every node is a nonnegative real. -/
theorem dinv_real (n : Fin 50000) :
    ∃ r : ℝ, 0 ≤ r ∧ val_main_v15 (F := Ideal) x1 (ix1 n) = (r : EReal) := by
  have h9 : ∀ i, val_main_v9 (F := Ideal) i = 0 := fun i => by
    rw [val_main_v9_apply, val_main_cst_0_apply]; exact Ideal.ofBits_zero_f32
  have h8 : ∀ i, val_main_v8 (F := Ideal) i = 1 := fun i => by
    rw [val_main_v8_apply, val_main_cst_apply]; exact Ideal.ofBits_one_f32
  rw [val_main_v15_apply, val_main_v13_apply, val_main_v14_apply, val_main_call0_v1_apply,
    val_main_call0_v0_apply, val_main_cst_2_apply, val_main_v12_apply, val_main_cst_1_apply]
  rw [v11_ideal x1]
  rw [Ideal.cmpf_def, Ideal.hostUnary_rsqrt_def, Ideal.ofBits_def, Ideal.ofBits_zero_f32]
  exact dinv_core _ h9 _ _ h8 n

end Cert.EdgeFacts

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibGcnLayer.lean ====
/-
  One layer of a degree-normalised graph convolution: where the normalisation is applied.

  Messages `H[src e] · a[src e]` are accumulated at their destinations and the sum at `n` is then scaled by
  `a[n]`; or each message is first scaled by `a[src e] · a[dst e]` and then accumulated. With `a` a
  nonnegative real at every node the two agree on the extended reals, whatever the messages are.
-/
import proofs.«122148_j15006615732583_2_alg».proof.Proof.LibRows
import proofs.«122148_j15006615732583_2_alg».proof.Proof.LibRows1
import proofs.«122148_j15006615732583_2_alg».proof.Proof.LibNormSum
import Idealize.ShloMosaic.Lib.Pipeline.Value
import Idealize.ShloMosaic.Lib.ValueIdx

noncomputable section

open scoped BigOperators

namespace Cert.GcnLayer

open Cert.Rows Cert.Rows1 Idealize.ShloMosaic Idealize.ShloMosaic.ValueIdx

/-- A vector `[N]` broadcast to a column `[N, 1]`, read at `(n, z)`, is the vector at `n`. -/
theorem bcast_col_apply {α : Type} {N : Nat} (h : (⟨1, ![N]⟩ : Shape).BroadcastsInDim ⟨2, ![N, 1]⟩ ![0])
    (x : (⟨1, ![N]⟩ : Shape).Idx → α) (n : Fin N) (z : Fin 1) :
    broadcastInDim ⟨2, ![N, 1]⟩ ![0] h x (ix2 n z) = x (ix1 n) :=
  broadcastInDim_apply _ h x (ix2 n z) (ix1 n) (fun ax => match ax with
    | ⟨0, _⟩ => by
      show n.val = if N = 1 then 0 else n.val
      split
      · have := n.isLt; omega
      · rfl)

/-- A column `[N, 1]` broadcast along rows to `[N, C]`, read at `(n, q)`, is the column at `(n, 0)`. -/
theorem bcast_row_apply {α : Type} {N C : Nat} (h : (⟨2, ![N, 1]⟩ : Shape).BroadcastsInDim ⟨2, ![N, C]⟩ ![0, 1])
    (x : (⟨2, ![N, 1]⟩ : Shape).Idx → α) (n : Fin N) (q : Fin C) :
    broadcastInDim ⟨2, ![N, C]⟩ ![0, 1] h x (ix2 n q) = x (ix2 n (0 : Fin 1)) :=
  broadcastInDim_apply _ h x (ix2 n q) (ix2 n (0 : Fin 1)) (fun ax => match ax with
    | ⟨0, _⟩ => by
      show n.val = if N = 1 then 0 else n.val
      split
      · have := n.isLt; omega
      · rfl
    | ⟨1, _⟩ => by
      show 0 = if (1 : Nat) = 1 then 0 else q.val
      rw [if_pos rfl])

/-- The layer identity: scaling the accumulated messages at `n` by `a[n]` is accumulating the messages
    each scaled by the factor of its own destination. The destination is read twice, raw by the scatter and
    clamped by the gather of `a`; `hdst` says the two readings agree wherever an update lands. -/
theorem layer_eq {N C M : Nat} (hN : 0 < N)
    (gwf : GatherDims.WF ⟨2, ![N, C]⟩ ⟨2, ![M, 1]⟩ ⟨2, ![M, C]⟩ [1] [0] [] [0] [] 1 ![1, C])
    (swf : ScatterDims.WF ⟨2, ![N, C]⟩ ⟨2, ![M, 1]⟩ ⟨2, ![M, C]⟩ [1] [0] [0] 1)
    (g1wf : GatherDims.WF ⟨1, ![N]⟩ ⟨2, ![M, 1]⟩ ⟨1, ![M]⟩ [] [0] [] [0] [] 1 ![1])
    (hn1 : (⟨1, ![N]⟩ : Shape).BroadcastsInDim ⟨2, ![N, 1]⟩ ![0])
    (hn2 : (⟨2, ![N, 1]⟩ : Shape).BroadcastsInDim ⟨2, ![N, C]⟩ ![0, 1])
    (hm1 : (⟨1, ![M]⟩ : Shape).BroadcastsInDim ⟨2, ![M, 1]⟩ ![0])
    (hm2 : (⟨2, ![M, 1]⟩ : Shape).BroadcastsInDim ⟨2, ![M, C]⟩ ![0, 1])
    (a : FVec Ideal ⟨1, ![N]⟩ .f32) (ha : ∀ n : Fin N, ∃ r : ℝ, 0 ≤ r ∧ a (ix1 n) = (r : EReal))
    (src src' dstn dstraw : IVec ⟨2, ![M, 1]⟩ 32) (hsrc : src' = src)
    (hdst : ∀ (e : Fin M) (n : Fin N), (dstraw (ix2 e (0 : Fin 1))).toInt = (n.val : ℤ) →
      min (dstn (ix2 e (0 : Fin 1))).toInt.toNat (N - 1) = n.val)
    (P H : FVec Ideal ⟨2, ![N, C]⟩ .f32) (hP : ∀ (n : Fin N) (q : Fin C), P (ix2 n q) = H (ix2 n q) * a (ix1 n))
    (Z : FVec Ideal ⟨2, ![N, C]⟩ .f32) (hZ : ∀ i, Z i = 0) (B : FVec Ideal ⟨2, ![N, C]⟩ .f32) :
    addf (mulf (broadcastInDim ⟨2, ![N, C]⟩ ![0, 1] hn2 (broadcastInDim ⟨2, ![N, 1]⟩ ![0] hn1 a))
        (Host.scatterAdd (scatter2 N C M swf) Z dstraw (Host.gather (gather2 N C M gwf) P src))) B
      = addf (Host.scatterAdd (scatter2 N C M swf) Z dstraw
          (mulf (Host.gather (gather2 N C M gwf) H src)
            (broadcastInDim ⟨2, ![M, C]⟩ ![0, 1] hm2 (broadcastInDim ⟨2, ![M, 1]⟩ ![0] hm1
              (mulf (Host.gather (gather1 N M g1wf) a src') (Host.gather (gather1 N M g1wf) a dstn)))))) B := by
  subst hsrc
  funext i
  obtain ⟨n, q, rfl⟩ : ∃ n q, i = ix2 n q := ⟨i 0, i 1, eq_ix2 i⟩
  rw [addf_apply, addf_apply, mulf_apply]
  congr 1
  rw [bcast_row_apply, bcast_col_apply]
  show a (ix1 n) * Ideal.hostScatterAdd (scatter2 N C M swf) Z dstraw (Host.gather (gather2 N C M gwf) P src') (ix2 n q)
    = Ideal.hostScatterAdd (scatter2 N C M swf) Z dstraw _ (ix2 n q)
  rw [scatterAdd2_apply, scatterAdd2_apply, hZ]
  obtain ⟨r, hr0, hr⟩ := ha n
  have han0 : (0 : EReal) ≤ a (ix1 n) := by rw [hr]; exact_mod_cast hr0
  have hant : a (ix1 n) ≠ ⊤ := by rw [hr]; exact EReal.coe_ne_top r
  have key := Cert.NormSum.normalized_sum_eq (a (ix1 n)) han0 hant
    (fun e : Fin M => (dstraw (ix2 e (0 : Fin 1))).toInt = (n.val : ℤ))
    (fun e => H (ix2 (⟨min (src' (ix2 e (0 : Fin 1))).toInt.toNat (N - 1), by omega⟩ : Fin N) q))
    (fun e => a (ix1 (⟨min (src' (ix2 e (0 : Fin 1))).toInt.toNat (N - 1), by omega⟩ : Fin N)))
    (fun e => a (ix1 (⟨min (dstn (ix2 e (0 : Fin 1))).toInt.toNat (N - 1), by omega⟩ : Fin N)))
    (fun e he => congrArg a (congrArg ix1 (Fin.ext (hdst e n he))))
  have hL : ∀ e : Fin M, Host.gather (gather2 N C M gwf) P src' (ix2 e q)
      = H (ix2 (⟨min (src' (ix2 e (0 : Fin 1))).toInt.toNat (N - 1), by omega⟩ : Fin N) q)
        * a (ix1 (⟨min (src' (ix2 e (0 : Fin 1))).toInt.toNat (N - 1), by omega⟩ : Fin N)) := fun e => by
    rw [gather2_apply hN, hP]
  have hR : ∀ e : Fin M,
      mulf (Host.gather (gather2 N C M gwf) H src')
        (broadcastInDim ⟨2, ![M, C]⟩ ![0, 1] hm2 (broadcastInDim ⟨2, ![M, 1]⟩ ![0] hm1
          (mulf (Host.gather (gather1 N M g1wf) a src') (Host.gather (gather1 N M g1wf) a dstn)))) (ix2 e q)
      = H (ix2 (⟨min (src' (ix2 e (0 : Fin 1))).toInt.toNat (N - 1), by omega⟩ : Fin N) q)
        * (a (ix1 (⟨min (src' (ix2 e (0 : Fin 1))).toInt.toNat (N - 1), by omega⟩ : Fin N))
          * a (ix1 (⟨min (dstn (ix2 e (0 : Fin 1))).toInt.toNat (N - 1), by omega⟩ : Fin N))) := fun e => by
    rw [mulf_apply, gather2_apply hN, bcast_row_apply, bcast_col_apply, mulf_apply, gather1_apply hN, gather1_apply hN]
  simp only [hL, hR]
  exact key

end Cert.GcnLayer

end
-- ==== Proof.Bridge.lean ====
/-
  The kernel's whole-program function is the reference's.

  Both programs compute the same edge lists, degrees and normaliser a (a nonnegative real at every node).
  In one layer the kernel gathers rows of p(n, ·) = h(n, ·)·a(n), accumulates them at the destinations and
  scales row n by a(n); the reference gathers rows of h, scales edge e by a(src e)·a(dst e) and accumulates.
  An edge accumulated at n has destination n, and a(n) is a nonnegative real, so a(n) distributes over the
  sum: the two layers agree entry by entry.  The logistic function between the layers and the second layer
  are the same functions of equal arrays.
-/
import proofs.«122148_j15006615732583_2_alg».proof.Proof.Stages
import proofs.«122148_j15006615732583_2_alg».proof.Proof.RefRead
import proofs.«122148_j15006615732583_2_alg».proof.Proof.EdgeFacts
import proofs.«122148_j15006615732583_2_alg».proof.Proof.LibGcnLayer
import proofs.«122148_j15006615732583_2_alg».proof.Proof.LibRowDot
import proofs.«122148_j15006615732583_2_alg».proof.Proof.LibColumn
import Idealize.ShloMosaic.PureOps.Ideal.Laws

set_option maxRecDepth 16384

noncomputable section

namespace Cert.Bridge

open Cert.KernelIdeal Cert.KernelIdeal.Spec Cert.KernelIdeal.Stages Cert.ScaledRows Cert.ReferenceIdeal.Read
open Idealize.ShloMosaic Idealize.ShloMosaic.ValueIdx

variable (x0 : S50000x128.Idx → EReal) (x1 : S2x800000.Idx → BitVec 32) (x2 : S128x128.Idx → EReal)
  (x3 : S128.Idx → EReal) (x4 : S128x64.Idx → EReal) (x5 : S64.Idx → EReal)

/-- The accumulator the scatter starts from is zero everywhere. -/
theorem zero128 (i : S50000x128.Idx) : val_main_v41 (F := Ideal) i = 0 := by
  rw [val_main_v41_apply, val_main_cst_8_apply]; exact Ideal.ofBits_zero_f32
theorem zero64 (i : S50000x64.Idx) : val_main_v87 (F := Ideal) i = 0 := by
  rw [val_main_v87_apply, val_main_cst_21_apply]; exact Ideal.ofBits_zero_f32

/-- A row-scaled product is the product, row n scaled by the normaliser at n (width 128). -/
theorem scaled128 (x : FVec Ideal S50000x128 .f32) (w : FVec Ideal S128x128 .f32) (a : FVec Ideal S50000 .f32) (n : Fin 50000) (q : Fin 128) :
    scaledRows x w (colOf a) (ix2 n q)
      = Host.dotGeneral (F := Ideal) Cert.ReferenceIdeal.dot_S50000x128_S128x128_S50000x128_1_0_0_1_n_n none x w (ix2 n q) * a (ix1 n) := by
  rw [scaledRows_apply]
  show _ = FloatOps.dotGeneral (F := Ideal) (DotDims.plain 50000 128 128) none .single x w (ix2 n q) * a (ix1 n)
  rw [Cert.RowDot.dotGeneral_plain_apply]
  exact congrArg (Cert.RowDot.rowDot (Cert.RowDot.rowOf x n) w q * ·) (Cert.Column.shapeCast_a_a1_apply a _ n 0)

theorem scaled64 (x : FVec Ideal S50000x128 .f32) (w : FVec Ideal S128x64 .f32) (a : FVec Ideal S50000 .f32) (n : Fin 50000) (q : Fin 64) :
    scaledRows x w (colOf a) (ix2 n q)
      = Host.dotGeneral (F := Ideal) Cert.ReferenceIdeal.dot_S50000x128_S128x64_S50000x64_1_0_0_1_n_n none x w (ix2 n q) * a (ix1 n) := by
  rw [scaledRows_apply]
  show _ = FloatOps.dotGeneral (F := Ideal) (DotDims.plain 50000 128 64) none .single x w (ix2 n q) * a (ix1 n)
  rw [Cert.RowDot.dotGeneral_plain_apply]
  exact congrArg (Cert.RowDot.rowDot (Cert.RowDot.rowOf x n) w q * ·) (Cert.Column.shapeCast_a_a1_apply a _ n 0)

/-- The first layer. -/
theorem layer1 :
    agg128 (dinvOf (dstOf x1)) (srcOf x1) (dstOf x1) (scaledRows x0 x2 (colOf (dinvOf (dstOf x1)))) x3
      = val_main_v46 (F := Ideal) x0 x1 x2 x3 :=
  Cert.GcnLayer.layer_eq (N := 50000) (C := 128) (M := 850000) (by decide)
    Cert.KernelIdeal.Gen.gather_S50000x128_S850000x1_S850000x128_1_0_n_n_0_1_1128_wf
    Cert.KernelIdeal.Gen.scatter_S50000x128_S850000x1_S850000x128_1_0_0_1_wf
    Cert.ReferenceIdeal.Gen.gather_S50000_S850000x1_S850000_n_0_n_n_0_1_1_wf
    Cert.KernelIdeal.Gen.bcast_S50000_S50000x1_0 Cert.KernelIdeal.Gen.bcast_S50000x1_S50000x128_0_1
    Cert.ReferenceIdeal.Gen.bcast_S850000_S850000x1_0 Cert.ReferenceIdeal.Gen.bcast_S850000x1_S850000x128_0_1
    (val_main_v15 (F := Ideal) x1) (Cert.EdgeFacts.dinv_real x1)
    (val_main_v36 (F := Ideal) x1) (val_main_v21 (F := Ideal) x1) (val_main_v28 (F := Ideal) x1) (val_main_v42 (F := Ideal) x1) rfl
    (Cert.EdgeFacts.dst_col x1)
    (scaledRows x0 x2 (colOf (val_main_v15 (F := Ideal) x1))) (val_main_v7 (F := Ideal) x0 x2)
    (fun n q => scaled128 x0 x2 (val_main_v15 (F := Ideal) x1) n q)
    (val_main_v41 (F := Ideal)) zero128 (val_main_v45 (F := Ideal) x3)

/-- The second layer, over the logistic of the first. -/
theorem layer2 :
    agg64 (dinvOf (dstOf x1)) (srcOf x1) (dstOf x1)
        (scaledRows (val_main_v52 (F := Ideal) x0 x1 x2 x3) x4 (colOf (dinvOf (dstOf x1)))) x5
      = val_main_v92 (F := Ideal) x0 x1 x2 x3 x4 x5 :=
  Cert.GcnLayer.layer_eq (N := 50000) (C := 64) (M := 850000) (by decide)
    Cert.KernelIdeal.Gen.gather_S50000x64_S850000x1_S850000x64_1_0_n_n_0_1_164_wf
    Cert.KernelIdeal.Gen.scatter_S50000x64_S850000x1_S850000x64_1_0_0_1_wf
    Cert.ReferenceIdeal.Gen.gather_S50000_S850000x1_S850000_n_0_n_n_0_1_1_wf
    Cert.KernelIdeal.Gen.bcast_S50000_S50000x1_0 Cert.KernelIdeal.Gen.bcast_S50000x1_S50000x64_0_1
    Cert.ReferenceIdeal.Gen.bcast_S850000_S850000x1_0 Cert.ReferenceIdeal.Gen.bcast_S850000x1_S850000x64_0_1
    (val_main_v15 (F := Ideal) x1) (Cert.EdgeFacts.dinv_real x1)
    (val_main_v36 (F := Ideal) x1) (val_main_v21 (F := Ideal) x1) (val_main_v28 (F := Ideal) x1) (val_main_v42 (F := Ideal) x1) rfl
    (Cert.EdgeFacts.dst_col x1)
    (scaledRows (val_main_v52 (F := Ideal) x0 x1 x2 x3) x4 (colOf (val_main_v15 (F := Ideal) x1)))
    (val_main_v53 (F := Ideal) x0 x1 x2 x3 x4)
    (fun n q => scaled64 (val_main_v52 (F := Ideal) x0 x1 x2 x3) x4 (val_main_v15 (F := Ideal) x1) n q)
    (val_main_v87 (F := Ideal)) zero64 (val_main_v91 (F := Ideal) x5)

/-- The kernel's whole-program function is the reference's result term. -/
theorem kernel_eq_ref : kernelOut x0 x1 x2 x3 x4 x5 = val_main_v92 (F := Ideal) x0 x1 x2 x3 x4 x5 := by
  unfold kernelOut
  rw [layer1 x0 x1 x2 x3]
  exact layer2 x0 x1 x2 x3 x4 x5

end Cert.Bridge

end
-- ==== Proof.lean ====
/-
  The certificate of a two-layer graph convolution: a Pallas row-blocked product with the symmetric degree
  normalisation fused into its epilogue, against the reference that scales every edge message.

  With a(n) = deg(n)^(−1/2) (zero where the degree is zero; the degree counts the listed destinations equal to n,
  self loops included), the reference's layer is  out(n, ·) = Σ_{e : dst e = n} h(src e, ·)·(a(src e)·a(dst e)) + b,
  the kernel's is  out(n, ·) = a(n)·Σ_{e : dst e = n} (h(src e, ·)·a(src e)) + b  with h = x·w computed block of rows
  by block of rows and scaled by a in the same pass.  Every edge accumulated at n has destination n, and a(n) is a
  nonnegative real, so it distributes over the sum on the extended reals whatever the other factors are: the two
  layers agree entry by entry, and so do the logistic function between them and the second layer.  No
  finiteness of the inputs is used.

  The three frames: the two kernel programs' are the generated frame certificates; the reference's is its run
  with the result dropped.  The idealization rewrote no operation, so the second-to-last conjunct is trivial.
-/
import proofs.«122148_j15006615732583_2_alg».proof.Defs
import proofs.«122148_j15006615732583_2_alg».proof.Proof.Gen.Kernel
import proofs.«122148_j15006615732583_2_alg».proof.Proof.Gen.Kernel.Skeleton
import proofs.«122148_j15006615732583_2_alg».proof.Proof.Gen.Kernel.Launch
import proofs.«122148_j15006615732583_2_alg».proof.Proof.Gen.Kernel.Points
import proofs.«122148_j15006615732583_2_alg».proof.Proof.Gen.Kernel.Frame
import proofs.«122148_j15006615732583_2_alg».proof.Proof.Gen.KernelIdeal
import proofs.«122148_j15006615732583_2_alg».proof.Proof.Gen.KernelIdeal.Skeleton
import proofs.«122148_j15006615732583_2_alg».proof.Proof.Gen.KernelIdeal.Launch
import proofs.«122148_j15006615732583_2_alg».proof.Proof.Gen.KernelIdeal.Points
import proofs.«122148_j15006615732583_2_alg».proof.Proof.Gen.KernelIdeal.Frame
import proofs.«122148_j15006615732583_2_alg».proof.Proof.Gen.ReferenceIdeal
import proofs.«122148_j15006615732583_2_alg».proof.Proof.Gen.Pre_finite_inputs
import proofs.«122148_j15006615732583_2_alg».proof.Proof.RefRun
import proofs.«122148_j15006615732583_2_alg».proof.Proof.RefRead
import proofs.«122148_j15006615732583_2_alg».proof.Proof.KernelRun
import proofs.«122148_j15006615732583_2_alg».proof.Proof.Stages
import proofs.«122148_j15006615732583_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the kernel's whole-program function of the (agreeing) arguments. -/
theorem algebraic : Cert.algebraic_KernelIdeal_ReferenceIdeal := by
  intro m ρ m' ρ' _ hagree
  refine ⟨fun c => Cert.KernelIdeal.Stages.kernelOut (Cert.KernelIdeal.Stages.X0 m c) (Cert.KernelIdeal.Stages.X1 m c)
      (Cert.KernelIdeal.Stages.X2 m c) (Cert.KernelIdeal.Stages.X3 m c) (Cert.KernelIdeal.Stages.X4 m c)
      (Cert.KernelIdeal.Stages.X5 m c), ?_, ?_⟩
  · exact (θ_run Cert.KernelIdeal.defs _ _).mono
      (fun _ h c => ⟨(h c).1.trans (Cert.KernelIdeal.Stages.W7_v56 m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v92_eq, (hagree c).1, (hagree c).2.1, (hagree c).2.2.1, (hagree c).2.2.2.1,
      (hagree c).2.2.2.2.1, (hagree c).2.2.2.2.2]
    exact (Cert.Bridge.kernel_eq_ref _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
